-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S4000x128 : Shape := ⟨2, ![4000, 128]⟩
abbrev S1600000x128 : Shape := ⟨2, ![1600000, 128]⟩
abbrev S1x128 : Shape := ⟨2, ![1, 128]⟩
abbrev S100000x64 : Shape := ⟨2, ![100000, 64]⟩
abbrev S4000x64 : Shape := ⟨2, ![4000, 64]⟩
abbrev S1600000x64 : Shape := ⟨2, ![1600000, 64]⟩
abbrev S1x64 : Shape := ⟨2, ![1, 64]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S1600000x1, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128x64, .f32⟩
  | .local _ .vmem, ⟨8, _⟩ => ⟨S4000x64, .f32⟩
  | .local _ .vmem, ⟨9, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S1600000x1, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibPlainDot.lean ====
/-
  A plain matrix product read at an index.

  For the dimension numbers of an M×K by K×N product (contract the left operand's columns against the right
  operand's rows, no batch axis), the sum over the contraction index of the products of the operands at the
  dot's operand indices is the textbook sum: entry (r, c) is the sum over k of left (r, k) times right (k, c).
  The same sum reads a vector unit's matmul into a zero accumulator and the host's dot_general at the ideal
  values, so the two are one function of their operands.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The textbook product of an M×K and a K×N array of extended reals. -/
def mm {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The left operand's index at output index `j` and contraction index `q` is (row of `j`, `q`). -/
theorem lhsIdx_plain {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  have hk := contrEquiv1_symm_val (DotDims.plain M K N) K rfl rfl k
  match a with
  | ⟨0, _⟩ => rfl
  | ⟨1, _⟩ => exact ((DotDims.plain M K N).lhsIdx_val_of_single rfl j _).trans hk

/-- The right operand's index there is (`q`, column of `j`). -/
theorem rhsIdx_plain {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  have hk := contrEquiv1_symm_val (DotDims.plain M K N) K rfl rfl k
  match a with
  | ⟨0, _⟩ => exact ((DotDims.plain M K N).rhsIdx_val_of_single rfl j _).trans hk
  | ⟨1, _⟩ => rfl

/-- The contraction's sum, re-indexed by the one contracted coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ q : (DotDims.plain M K N).contr.Idx, A ((DotDims.plain M K N).lhsIdx j q) * B ((DotDims.plain M K N).rhsIdx j q)
      = mm A B j := by
  unfold mm
  rw [← Equiv.sum_comp (contrEquiv1 (DotDims.plain M K N) K rfl rfl).symm]
  refine Finset.sum_congr rfl fun k _ => ?_
  rw [lhsIdx_plain, rhsIdx_plain]
  rfl

/-- A vector unit's matmul into the zero accumulator is the textbook product. -/
theorem matmul_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm A B := by
  funext j
  rw [Ideal.matmul_constant_zero_apply]
  exact sum_plain A B j

/-- The host's dot_general is the textbook product, whatever the schedule. -/
theorem dotGeneral_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm A B := by
  funext j
  rw [Ideal.dotGeneral_apply]
  exact sum_plain A B j

end Idealize.ShloMosaic.PlainDot

end
-- ==== Proof.LibRowBlocks.lean ====
/-
  The rows of a matrix product.

  Entry (r, c) of A·B depends on row r of A only: it is the sum over k of A (r, k) · B (k, c). So if a block Ab of
  Mb rows holds rows base … base + Mb − 1 of A, then row r of Ab·B is row base + r of A·B. This is what lets a
  product computed block of rows by block of rows be read as one product of the whole arrays.
-/
import proofs.«130010_j64982855188731_1_alg».proof.Proof.LibPlainDot

noncomputable section

open scoped BigOperators

namespace Idealize.ShloMosaic.RowBlocks

open Idealize.ShloMosaic Idealize.ShloMosaic.ValueIdx Idealize.ShloMosaic.PlainDot

/-- If row `j 0` of the block `Ab` is row `i 0` of `A` and the two indices name the same column, the block's product
    with `B` at `j` is the whole product at `i`. -/
theorem mm_block_entry {M Mb K N : Nat} (A : (⟨2, ![M, K]⟩ : Shape).Idx → EReal) (Ab : (⟨2, ![Mb, K]⟩ : Shape).Idx → EReal)
    (B : (⟨2, ![K, N]⟩ : Shape).Idx → EReal) (i : (⟨2, ![M, N]⟩ : Shape).Idx) (j : (⟨2, ![Mb, N]⟩ : Shape).Idx)
    (hrow : ∀ k : Fin K, Ab (ix2 (j 0) k) = A (ix2 (i 0) k)) (hcol : (j 1).val = (i 1).val) :
    mm Ab B j = mm A B i := by
  unfold mm
  refine Finset.sum_congr rfl fun k _ => ?_
  rw [hrow k]
  refine congrArg (A (ix2 (i 0) k) * B ·) ?_
  funext a
  match a with
  | ⟨0, _⟩ => rfl
  | ⟨1, _⟩ => exact Fin.ext hcol

end Idealize.ShloMosaic.RowBlocks

end
-- ==== Proof.FirstProduct.lean ====
/-
  The first pallas_call computes one matrix product: x · W1.

  The pallas_call walks a grid of 25 points. At point t it loads rows 4000·t … 4000·t + 3999 of the left operand (a
  [100000, 128] array) and the whole right operand (a [128, 128] array), multiplies them on the matrix unit into a zero
  accumulator (the roundings to bf16 on the way in are the identity on the extended reals), and writes the [4000, 128]
  product back as rows 4000·t … 4000·t + 3999 of the result. Entry (r, c) of a product depends on row r of the left
  operand only, so the block written at point t is that block of rows of the ONE product of the whole arrays; the 25
  blocks tile the result, so after the last point the result array holds the textbook product
  (sum over k of left (r, k) · right (k, c)) of the two arrays as the region found them.
-/
import proofs.«130010_j64982855188731_1_alg».proof.Proof.Gen.KernelIdeal.Frame
import proofs.«130010_j64982855188731_1_alg».proof.Proof.LibRowBlocks
import Idealize.ShloMosaic.Lib.Pipeline.Value

set_option maxRecDepth 16384

noncomputable section

open Idealize.ShloMosaic Idealize.ShloMosaic.TcCoe Idealize.SL.Sem
open Idealize.ShloMosaic.Pipeline (Dat)
open Idealize.ShloMosaic.ValueIdx Idealize.ShloMosaic.PlainDot Idealize.ShloMosaic.RowBlocks

namespace Cert.KernelIdeal.FirstProduct

open Cert.KernelIdeal Cert.KernelIdeal.Gen

-- the buffer contents when the region is entered: any contents
variable (V : (c : Dev nD) → (b : Ref sig .tc) → Buf (Elt Ideal) ((c : Thread nD τ).loc b))

theorem zero_offsets : (![0, 0] : Fin 2 → Nat) = fun _ => 0 := funext fun a => by fin_cases a <;> rfl

/-- What the body stores is the product of the two blocks it loaded. -/
theorem body_product (x0 : Vec Ideal S4000x128 .f32) (x1 : Vec Ideal S128x128 .f32) :
    k0_pay1 x0 x1 = mm (M := 4000) (K := 128) (N := 128) x0 x1 := by
  unfold k0_pay1
  exact matmul_zero_eq_mm none x0 x1

/-- The index maps, decided over the grid: the left operand's and the result's row-block index is the point's number,
    every other block index is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of the left operand's block at point t is row 4000·t + r of the array. -/
theorem left_block (c : Dev nD) (t : Fin cfg0.N) (y : S4000x128.Idx) (i : S100000x128.Idx)
    (h0 : (i 0).val = 4000 * t.val + (y 0).val) (h1 : (i 1).val = (y 1).val) :
    (iblk0 V c 0 t : Vec Ideal S4000x128 .f32) y = (V c main_arg0 : S100000x128.Idx → EReal) i := by
  obtain ⟨e0, e1, -⟩ := index_facts t
  unfold iblk0
  rw [View.read_apply]
  show V c main_arg0 _ = V c main_arg0 _
  refine congrArg (V c main_arg0) ?_
  funext a
  apply Fin.ext
  match a with
  | ⟨0, _⟩ => show win0_0.index t 0 * 4000 + 1 * (y 0).val = (i 0).val; rw [e0, h0]; omega
  | ⟨1, _⟩ => show win0_0.index t 1 * 128 + 1 * (y 1).val = (i 1).val; rw [e1, h1]; omega

/-- The right operand's block at every point is the whole array. -/
theorem right_block (c : Dev nD) (t : Fin cfg0.N) :
    (iblk0 V c 1 t : Vec Ideal S128x128 .f32) = (V c main_arg2 : S128x128.Idx → EReal) := by
  obtain ⟨-, -, e2, e3, -⟩ := index_facts t
  funext y
  unfold iblk0
  rw [View.read_apply]
  show V c main_arg2 _ = V c main_arg2 _
  refine congrArg (V c main_arg2) ?_
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- What point t writes back is block t of the product of the whole arrays. -/
theorem flushed_eq (c : Dev nD) (t : Fin cfg0.N) :
    (dat0 V c).flushed 2 t
      = ((cfg0.win 2).blk t).view.read (Elt Ideal) (mm (M := 100000) (K := 128) (N := 128) (V c main_arg0) (V c main_arg2)) := by
  show (cfg0.win 2).cut (grid0.coords t) ((dat0 V c).after 2 t) = _
  rw [after0_2]
  unfold out0_2
  rw [View.canon_unit_zero zero_offsets]
  simp only [View.ld_unit_zero (S := S4000x128) zero_offsets, View.ld_unit_zero (S := S128x128) zero_offsets]
  rw [body_product, right_block V c t]
  obtain ⟨-, -, -, -, e4, e5⟩ := index_facts t
  funext j
  show mm (M := 4000) (K := 128) (N := 128) (iblk0 V c 0 t) (V c main_arg2) j
    = mm (M := 100000) (K := 128) (N := 128) (V c main_arg0) (V c main_arg2) (((cfg0.win 2).blk t).view.emb j)
  refine mm_block_entry (M := 100000) (Mb := 4000) (K := 128) (N := 128) (V c main_arg0) (iblk0 V c 0 t) (V c main_arg2) _ j (fun k => ?_) ?_
  · refine left_block V c t (ix2 (j 0) k) _ ?_ rfl
    show win0_2.index t 0 * 4000 + 1 * (j 0).val = 4000 * t.val + (j 0).val
    rw [e4]; omega
  · show (j 1).val = win0_2.index t 1 * 128 + 1 * (j 1).val
    rw [e5]; omega

/-- An index of the result array is in point t's block iff each coordinate is in the block's range on its axis. -/
theorem mem_block (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v29).slice (win0_2.rect t)).set ↔ _
  rw [View.set_slice_whole, Rect.mem_set_unit]
  exact Iff.rfl

/-- Every index of the result array is in some point's block: row r is in block r / 4000. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, e4, e5⟩ := index_facts ⟨(i 0).val / 4000, ht⟩
  refine ⟨⟨(i 0).val / 4000, ht⟩, flush0_2 _, ?_⟩
  rw [mem_block]
  intro a
  match a with
  | ⟨0, _⟩ =>
    show win0_2.index ⟨(i 0).val / 4000, ht⟩ 0 * 4000 ≤ (i 0).val ∧ (i 0).val < win0_2.index ⟨(i 0).val / 4000, ht⟩ 0 * 4000 + 4000
    rw [e4]; show (i 0).val / 4000 * 4000 ≤ (i 0).val ∧ (i 0).val < (i 0).val / 4000 * 4000 + 4000; omega
  | ⟨1, _⟩ =>
    show win0_2.index ⟨(i 0).val / 4000, ht⟩ 1 * 128 ≤ (i 1).val ∧ (i 1).val < win0_2.index ⟨(i 0).val / 4000, ht⟩ 1 * 128 + 128
    rw [e5]; omega

/-- After the last point the result array holds the product of the two arrays as the region found them. -/
theorem final (c : Dev nD) :
    (dat0 V c).arrAt 2 cfg0.N = mm (M := 100000) (K := 128) (N := 128) (V c main_arg0) (V c main_arg2) :=
  (dat0 V c).arrAt_eq_of_cover 2 (mm (M := 100000) (K := 128) (N := 128) (V c main_arg0) (V c main_arg2))
    (fun t _ => flushed_eq V c t) covered

end Cert.KernelIdeal.FirstProduct

end
-- ==== Proof.SecondProduct.lean ====
/-
  The second pallas_call computes one matrix product: h1 · W2.

  The pallas_call walks a grid of 25 points. At point t it loads rows 4000·t … 4000·t + 3999 of the left operand (a
  [100000, 128] array) and the whole right operand (a [128, 64] array), multiplies them on the matrix unit into a zero
  accumulator (the roundings to bf16 on the way in are the identity on the extended reals), and writes the [4000, 64]
  product back as rows 4000·t … 4000·t + 3999 of the result. Entry (r, c) of a product depends on row r of the left
  operand only, so the block written at point t is that block of rows of the ONE product of the whole arrays; the 25
  blocks tile the result, so after the last point the result array holds the textbook product
  (sum over k of left (r, k) · right (k, c)) of the two arrays as the region found them.
-/
import proofs.«130010_j64982855188731_1_alg».proof.Proof.Gen.KernelIdeal.Frame
import proofs.«130010_j64982855188731_1_alg».proof.Proof.LibRowBlocks
import Idealize.ShloMosaic.Lib.Pipeline.Value

set_option maxRecDepth 16384

noncomputable section

open Idealize.ShloMosaic Idealize.ShloMosaic.TcCoe Idealize.SL.Sem
open Idealize.ShloMosaic.Pipeline (Dat)
open Idealize.ShloMosaic.ValueIdx Idealize.ShloMosaic.PlainDot Idealize.ShloMosaic.RowBlocks

namespace Cert.KernelIdeal.SecondProduct

open Cert.KernelIdeal Cert.KernelIdeal.Gen

-- the buffer contents when the region is entered: any contents
variable (V : (c : Dev nD) → (b : Ref sig .tc) → Buf (Elt Ideal) ((c : Thread nD τ).loc b))

theorem zero_offsets : (![0, 0] : Fin 2 → Nat) = fun _ => 0 := funext fun a => by fin_cases a <;> rfl

/-- What the body stores is the product of the two blocks it loaded. -/
theorem body_product (x0 : Vec Ideal S4000x128 .f32) (x1 : Vec Ideal S128x64 .f32) :
    k1_pay1 x0 x1 = mm (M := 4000) (K := 128) (N := 64) x0 x1 := by
  unfold k1_pay1
  rw [shapeCast_self]
  exact matmul_zero_eq_mm none x0 x1

/-- The index maps, decided over the grid: the left operand's and the result's row-block index is the point's number,
    every other block index is zero. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row r of the left operand's block at point t is row 4000·t + r of the array. -/
theorem left_block (c : Dev nD) (t : Fin cfg1.N) (y : S4000x128.Idx) (i : S100000x128.Idx)
    (h0 : (i 0).val = 4000 * t.val + (y 0).val) (h1 : (i 1).val = (y 1).val) :
    (iblk1 V c 0 t : Vec Ideal S4000x128 .f32) y = (V c main_v46 : S100000x128.Idx → EReal) i := by
  obtain ⟨e0, e1, -⟩ := index_facts t
  unfold iblk1
  rw [View.read_apply]
  show V c main_v46 _ = V c main_v46 _
  refine congrArg (V c main_v46) ?_
  funext a
  apply Fin.ext
  match a with
  | ⟨0, _⟩ => show win1_0.index t 0 * 4000 + 1 * (y 0).val = (i 0).val; rw [e0, h0]; omega
  | ⟨1, _⟩ => show win1_0.index t 1 * 128 + 1 * (y 1).val = (i 1).val; rw [e1, h1]; omega

/-- The right operand's block at every point is the whole array. -/
theorem right_block (c : Dev nD) (t : Fin cfg1.N) :
    (iblk1 V c 1 t : Vec Ideal S128x64 .f32) = (V c main_arg4 : S128x64.Idx → EReal) := by
  obtain ⟨-, -, e2, e3, -⟩ := index_facts t
  funext y
  unfold iblk1
  rw [View.read_apply]
  show V c main_arg4 _ = V c main_arg4 _
  refine congrArg (V c main_arg4) ?_
  funext a
  apply Fin.ext
  match a with
  | ⟨0, _⟩ => show win1_1.index t 0 * 128 + 1 * (y 0).val = (y 0).val; rw [e2]; omega
  | ⟨1, _⟩ => show win1_1.index t 1 * 64 + 1 * (y 1).val = (y 1).val; rw [e3]; omega

/-- What point t writes back is block t of the product of the whole arrays. -/
theorem flushed_eq (c : Dev nD) (t : Fin cfg1.N) :
    (dat1 V c).flushed 2 t
      = ((cfg1.win 2).blk t).view.read (Elt Ideal) (mm (M := 100000) (K := 128) (N := 64) (V c main_v46) (V c main_arg4)) := by
  show (cfg1.win 2).cut (grid1.coords t) ((dat1 V c).after 2 t) = _
  rw [after1_2]
  unfold out1_2
  rw [View.canon_unit_zero zero_offsets]
  simp only [View.ld_unit_zero (S := S4000x128) zero_offsets, View.ld_unit_zero (S := S128x64) zero_offsets]
  rw [body_product, right_block V c t]
  obtain ⟨-, -, -, -, e4, e5⟩ := index_facts t
  funext j
  show mm (M := 4000) (K := 128) (N := 64) (iblk1 V c 0 t) (V c main_arg4) j
    = mm (M := 100000) (K := 128) (N := 64) (V c main_v46) (V c main_arg4) (((cfg1.win 2).blk t).view.emb j)
  refine mm_block_entry (M := 100000) (Mb := 4000) (K := 128) (N := 64) (V c main_v46) (iblk1 V c 0 t) (V c main_arg4) _ j (fun k => ?_) ?_
  · refine left_block V c t (ix2 (j 0) k) _ ?_ rfl
    show win1_2.index t 0 * 4000 + 1 * (j 0).val = 4000 * t.val + (j 0).val
    rw [e4]; omega
  · show (j 1).val = win1_2.index t 1 * 64 + 1 * (j 1).val
    rw [e5]; omega

/-- An index of the result array is in point t's block iff each coordinate is in the block's range on its axis. -/
theorem mem_block (t : Fin cfg1.N) (i : S100000x64.Idx) :
    i ∈ ((cfg1.win 2).blk t).view.set ↔ ∀ a : Fin 2, win1_2.index t a * S4000x64.size a ≤ (i a).val
      ∧ (i a).val < win1_2.index t a * S4000x64.size a + S4000x64.size a := by
  show i ∈ ((View.whole main_v47).slice (win1_2.rect t)).set ↔ _
  rw [View.set_slice_whole, Rect.mem_set_unit]
  exact Iff.rfl

/-- Every index of the result array is in some point's block: row r is in block r / 4000. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 25 := N_1
  have ht : (i 0).val / 4000 < cfg1.N := by rw [hN]; omega
  obtain ⟨-, -, -, -, e4, e5⟩ := index_facts ⟨(i 0).val / 4000, ht⟩
  refine ⟨⟨(i 0).val / 4000, ht⟩, flush1_2 _, ?_⟩
  rw [mem_block]
  intro a
  match a with
  | ⟨0, _⟩ =>
    show win1_2.index ⟨(i 0).val / 4000, ht⟩ 0 * 4000 ≤ (i 0).val ∧ (i 0).val < win1_2.index ⟨(i 0).val / 4000, ht⟩ 0 * 4000 + 4000
    rw [e4]; show (i 0).val / 4000 * 4000 ≤ (i 0).val ∧ (i 0).val < (i 0).val / 4000 * 4000 + 4000; omega
  | ⟨1, _⟩ =>
    show win1_2.index ⟨(i 0).val / 4000, ht⟩ 1 * 64 ≤ (i 1).val ∧ (i 1).val < win1_2.index ⟨(i 0).val / 4000, ht⟩ 1 * 64 + 64
    rw [e5]; omega

/-- After the last point the result array holds the product of the two arrays as the region found them. -/
theorem final (c : Dev nD) :
    (dat1 V c).arrAt 2 cfg1.N = mm (M := 100000) (K := 128) (N := 64) (V c main_v46) (V c main_arg4) :=
  (dat1 V c).arrAt_eq_of_cover 2 (mm (M := 100000) (K := 128) (N := 64) (V c main_v46) (V c main_arg4))
    (fun t _ => flushed_eq V c t) covered

end Cert.KernelIdeal.SecondProduct

end
-- ==== Proof.KernelValue.lean ====
/-
  The idealized kernel's result as one term of the argument arrays.

  @main computes, on the host, the graph's normalization from the edge list (the in-degree of every node by a
  scatter-add of ones, its inverse square root where positive, the product of the two end points' factors per edge),
  then twice: a matrix product on the matrix unit, a gather of the product's rows at the edges' sources, the scaling by
  the edge's factor, a scatter-add at the edges' destinations and the bias — with a relu between the two layers. The
  buffer contents at the boundaries between host stretches and pallas_calls are read here one boundary at a time: a
  host stretch is its operations applied, a pallas_call leaves the product of its two operand arrays.
-/
import proofs.«130010_j64982855188731_1_alg».proof.Proof.Gen.KernelIdeal.Frame
import proofs.«130010_j64982855188731_1_alg».proof.Proof.FirstProduct
import proofs.«130010_j64982855188731_1_alg».proof.Proof.SecondProduct
import Idealize.ShloMosaic.Lib.StableHlo.Run

set_option maxRecDepth 16384

noncomputable section

open Idealize.ShloMosaic Idealize.ShloMosaic.TcCoe Idealize.SL.Sem Idealize.ShloMosaic.StableHlo
open Idealize.ShloMosaic.PlainDot

namespace Cert.KernelIdeal.Gcn

open Cert.KernelIdeal Cert.KernelIdeal.Gen

variable (m : (ℓ : Loc nD τ sig) → Buf (Elt Ideal) ℓ) (ρ : Dev nD → PrngReg) (c : Dev nD)

/-! ## The pieces, as the program's own operations -/

/-- The source node of every edge: row 0 of the edge list. -/
def src : IVec S1600000 32 :=
  shapeCast S1600000 (extractStridedSlice S1x1600000 ![0, 0] (m ((c.tc : Thread nD τ).loc main_arg1)) slices_S2x1600000_S1x1600000_0_0) shapeCasts_S1x1600000_S1600000

/-- The destination node of every edge: row 1 of the edge list. -/
def dst : IVec S1600000 32 :=
  shapeCast S1600000 (extractStridedSlice S1x1600000 ![1, 0] (m ((c.tc : Thread nD τ).loc main_arg1)) slices_S2x1600000_S1x1600000_1_0) shapeCasts_S1x1600000_S1600000

/-- A node number as a gather's start index: a negative one counts from the end (jnp's indexing), as a column. -/
def wrap (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The in-degree of every node: ones scatter-added at the edges' destinations. -/
def deg : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 (dst m c))
    (broadcastInDim S1600000 ![] bcast_S_S1600000 (constant (F := Ideal) S_ .f32 0x3F800000#32))

/-- Where the in-degree is positive. -/
def degPositive : IVec S100000 1 :=
  cmpf (F := Ideal) .ogt (deg m c) (broadcastInDim S100000 ![] bcast_S_S100000 (constant (F := Ideal) S_ .f32 0x00000000#32))

/-- 1 / sqrt(max(deg, 1)). -/
def degRsqrt : FVec Ideal S100000 .f32 :=
  Host.rsqrt (F := Ideal) (maximumf (deg m c) (broadcastInDim S100000 ![] bcast_S_S100000 (constant (F := Ideal) S_ .f32 0x3F800000#32)))

/-- 1 / sqrt(max(deg, 1)) where the degree is positive, 0 elsewhere. -/
def degInvSqrt : FVec Ideal S100000 .f32 :=
  select (degPositive m c) (degRsqrt m c)
    (broadcastInDim S100000 ![] bcast_S_S100000 (id (constant (F := Ideal) S_ .f32 0x00000000#32)))

/-- The factor of every edge: the product of its two end points' factors. -/
def edgeNorm : FVec Ideal S1600000 .f32 :=
  mulf (Host.gather gather_S100000_S1600000x1_S1600000_n_0_n_n_0_1_1 (degInvSqrt m c) (wrap (src m c)))
    (Host.gather gather_S100000_S1600000x1_S1600000_n_0_n_n_0_1_1 (degInvSqrt m c) (wrap (dst m c)))

/-- The first layer's aggregation and bias: gather the rows at the sources, scale by the edge's factor, scatter-add at
    the destinations, add the bias. -/
def aggregate128 (h : FVec Ideal S100000x128 .f32) : FVec Ideal S100000x128 .f32 :=
  addf (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (dst m c))
      (mulf (Host.gather gather_S100000x128_S1600000x1_S1600000x128_1_0_n_n_0_1_1128 h (wrap (src m c)))
        (broadcastInDim S1600000x128 ![0, 1] bcast_S1600000x1_S1600000x128_0_1
          (broadcastInDim S1600000x1 ![0] bcast_S1600000_S1600000x1_0 (edgeNorm m c)))))
    (broadcastInDim S100000x128 ![0, 1] bcast_S1x128_S100000x128_0_1
      (broadcastInDim S1x128 ![1] bcast_S128_S1x128_1 (m ((c.tc : Thread nD τ).loc main_arg3))))

/-- The relu between the layers. -/
def relu128 (h : FVec Ideal S100000x128 .f32) : FVec Ideal S100000x128 .f32 :=
  maximumf h (broadcastInDim S100000x128 ![] bcast_S_S100000x128 (constant (F := Ideal) S_ .f32 0x00000000#32))

/-- The second layer's aggregation and bias. -/
def aggregate64 (h : FVec Ideal S100000x64 .f32) : FVec Ideal S100000x64 .f32 :=
  addf (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (dst m c))
      (mulf (Host.gather gather_S100000x64_S1600000x1_S1600000x64_1_0_n_n_0_1_164 h (wrap (src m c)))
        (broadcastInDim S1600000x64 ![0, 1] bcast_S1600000x1_S1600000x64_0_1
          (broadcastInDim S1600000x1 ![0] bcast_S1600000_S1600000x1_0 (edgeNorm m c)))))
    (broadcastInDim S100000x64 ![0, 1] bcast_S1x64_S100000x64_0_1
      (broadcastInDim S1x64 ![1] bcast_S64_S1x64_1 (m ((c.tc : Thread nD τ).loc main_arg5))))

/-- The hidden layer: relu of the aggregated first product. -/
def hidden : FVec Ideal S100000x128 .f32 :=
  relu128 (aggregate128 m c (mm (M := 100000) (K := 128) (N := 128) (m ((c.tc : Thread nD τ).loc main_arg0)) (m ((c.tc : Thread nD τ).loc main_arg2))))

/-- The network's output. -/
def output : FVec Ideal S100000x64 .f32 :=
  aggregate64 m c (mm (M := 100000) (K := 128) (N := 64) (hidden m c) (m ((c.tc : Thread nD τ).loc main_arg4)))

/-! ## A called function's buffers

A called function's operations read and write their buffers at the carried tensor type, moved to the buffer's own type
and back by a transport along an equation between the two types. At a literal buffer the two types are the same, and
the transport of any contents is those contents. -/

/-- Moving contents to a buffer's type and back is the identity. -/
theorem ofBuf_toBuf {T : BufTy} (x : TRef sig T) (v : T.Contents (Elt Ideal)) : x.ofBuf (x.toBuf v) = v := by
  simp only [TRef.ofBuf, TRef.toBuf, cast_cast, cast_eq]

theorem ofBuf_zero (v : (⟨S_, .f32⟩ : BufTy).Contents (Elt Ideal)) :
    (TRef.of (sig := sig) (T := ⟨S_, .f32⟩) main_cst_3).ofBuf v = v := rfl
theorem ofBuf_positive (v : (⟨S100000, .i1⟩ : BufTy).Contents (Elt Ideal)) :
    (TRef.of (sig := sig) (T := ⟨S100000, .i1⟩) main_v9).ofBuf v = v := rfl
theorem ofBuf_rsqrt (v : (⟨S100000, .f32⟩ : BufTy).Contents (Elt Ideal)) :
    (TRef.of (sig := sig) (T := ⟨S100000, .f32⟩) main_v12).ofBuf v = v := rfl
theorem toBuf_factor (v : (⟨S100000, .f32⟩ : BufTy).Contents (Elt Ideal)) :
    (TRef.of (sig := sig) (T := ⟨S100000, .f32⟩) main_v13).toBuf v = v := rfl
theorem ofBuf_aggregated (v : (⟨S100000x128, .f32⟩ : BufTy).Contents (Elt Ideal)) :
    (TRef.of (sig := sig) (T := ⟨S100000x128, .f32⟩) main_v45).ofBuf v = v := rfl
theorem toBuf_hidden (v : (⟨S100000x128, .f32⟩ : BufTy).Contents (Elt Ideal)) :
    (TRef.of (sig := sig) (T := ⟨S100000x128, .f32⟩) main_v46).toBuf v = v := rfl

/-! ## The host operations before the first pallas_call

Three stretches: the edge list's two rows, the in-degree and the two vectors the select reads; the select (a called
function, inlined); the two gathers of the nodes' factors and their product. Each stretch is read over the names of
the one before it. -/

theorem s1_positive : W1 m ρ c (Proc.devRef .tc main_v9) = degPositive m c := by
  dsimp only [W1, hostOps0]; after_results_simp <;> rfl
theorem s1_rsqrt : W1 m ρ c (Proc.devRef .tc main_v12) = degRsqrt m c := by
  dsimp only [W1, hostOps0]; after_results_simp <;> rfl
theorem s1_zero : W1 m ρ c (Proc.devRef .tc main_cst_3) = constant (F := Ideal) S_ .f32 0x00000000#32 := by
  dsimp only [W1, hostOps0]; after_results_simp <;> rfl

theorem s2_factor : W2 m ρ c (Proc.devRef .tc main_v13) = degInvSqrt m c := by
  show StableHlo.after hostOps0_1 (W1 m ρ c) (Proc.devRef .tc main_v13) = _
  have h9 := s1_positive m ρ c
  have h12 := s1_rsqrt m ρ c
  have h0 := s1_zero m ρ c
  generalize W1 m ρ c = V at h9 h12 h0 ⊢
  dsimp only [hostOps0_1]
  after_results_simp
  simp only [ofBuf_toBuf, ofBuf_zero, ofBuf_positive, ofBuf_rsqrt, toBuf_factor]
  rw [h9, h12, h0]
  rfl
theorem s2_src : W2 m ρ c (Proc.devRef .tc main_v1) = src m c := by
  dsimp only [W2, W1, hostOps0, hostOps0_1]; after_results_simp <;> rfl
theorem s2_dst : W2 m ρ c (Proc.devRef .tc main_v3) = dst m c := by
  dsimp only [W2, W1, hostOps0, hostOps0_1]; after_results_simp <;> rfl

theorem entry0_norm : W3 m ρ c (Proc.devRef .tc main_v28) = edgeNorm m c := by
  show StableHlo.after hostOps0_2 (W2 m ρ c) (Proc.devRef .tc main_v28) = _
  have h13 := s2_factor m ρ c
  have h1 := s2_src m ρ c
  have h3 := s2_dst m ρ c
  generalize W2 m ρ c = V at h13 h1 h3 ⊢
  dsimp only [hostOps0_2]
  after_results_simp
  rw [h13, h1, h3]
  rfl
theorem entry0_src : W3 m ρ c (Proc.devRef .tc main_v1) = src m c := by
  dsimp only [W3, W2, W1, hostOps0, hostOps0_1, hostOps0_2]; after_results_simp <;> rfl
theorem entry0_dst : W3 m ρ c (Proc.devRef .tc main_v3) = dst m c := by
  dsimp only [W3, W2, W1, hostOps0, hostOps0_1, hostOps0_2]; after_results_simp <;> rfl
theorem entry0_arg0 : W3 m ρ c (Proc.devRef .tc main_arg0) = m ((c.tc : Thread nD τ).loc main_arg0) := by
  dsimp only [W3, W2, W1, hostOps0, hostOps0_1, hostOps0_2]; after_results_simp <;> rfl
theorem entry0_arg2 : W3 m ρ c (Proc.devRef .tc main_arg2) = m ((c.tc : Thread nD τ).loc main_arg2) := by
  dsimp only [W3, W2, W1, hostOps0, hostOps0_1, hostOps0_2]; after_results_simp <;> rfl
theorem entry0_arg3 : W3 m ρ c (Proc.devRef .tc main_arg3) = m ((c.tc : Thread nD τ).loc main_arg3) := by
  dsimp only [W3, W2, W1, hostOps0, hostOps0_1, hostOps0_2]; after_results_simp <;> rfl
theorem entry0_arg4 : W3 m ρ c (Proc.devRef .tc main_arg4) = m ((c.tc : Thread nD τ).loc main_arg4) := by
  dsimp only [W3, W2, W1, hostOps0, hostOps0_1, hostOps0_2]; after_results_simp <;> rfl
theorem entry0_arg5 : W3 m ρ c (Proc.devRef .tc main_arg5) = m ((c.tc : Thread nD τ).loc main_arg5) := by
  dsimp only [W3, W2, W1, hostOps0, hostOps0_1, hostOps0_2]; after_results_simp <;> rfl

/-! ## After the first pallas_call

Its result array holds the product of its two operand arrays as it found them; every other buffer is as it was. -/

theorem exit0_product : W4 m ρ c (Proc.devRef .tc main_v29)
    = mm (M := 100000) (K := 128) (N := 128) (m ((c.tc : Thread nD τ).loc main_arg0)) (m ((c.tc : Thread nD τ).loc main_arg2)) := by
  refine (W4_arr m ρ c 2).trans ((FirstProduct.final (V3 m ρ) c).trans ?_)
  show mm (M := 100000) (K := 128) (N := 128) (W3 m ρ c (Proc.devRef .tc main_arg0)) (W3 m ρ c (Proc.devRef .tc main_arg2)) = _
  rw [entry0_arg0, entry0_arg2]

theorem exit0_src : W4 m ρ c (Proc.devRef .tc main_v1) = src m c := (W4_of_ne m ρ c main_v1 (by decide)).trans (entry0_src m ρ c)
theorem exit0_dst : W4 m ρ c (Proc.devRef .tc main_v3) = dst m c := (W4_of_ne m ρ c main_v3 (by decide)).trans (entry0_dst m ρ c)
theorem exit0_norm : W4 m ρ c (Proc.devRef .tc main_v28) = edgeNorm m c := (W4_of_ne m ρ c main_v28 (by decide)).trans (entry0_norm m ρ c)
theorem exit0_arg3 : W4 m ρ c (Proc.devRef .tc main_arg3) = m ((c.tc : Thread nD τ).loc main_arg3) := (W4_of_ne m ρ c main_arg3 (by decide)).trans (entry0_arg3 m ρ c)
theorem exit0_arg4 : W4 m ρ c (Proc.devRef .tc main_arg4) = m ((c.tc : Thread nD τ).loc main_arg4) := (W4_of_ne m ρ c main_arg4 (by decide)).trans (entry0_arg4 m ρ c)
theorem exit0_arg5 : W4 m ρ c (Proc.devRef .tc main_arg5) = m ((c.tc : Thread nD τ).loc main_arg5) := (W4_of_ne m ρ c main_arg5 (by decide)).trans (entry0_arg5 m ρ c)

/-! ## Between the two pallas_calls

The first layer's aggregation and bias, applied to the first product; then the relu (a called function, inlined). -/

theorem s5_aggregated : W5 m ρ c (Proc.devRef .tc main_v45)
    = aggregate128 m c (mm (M := 100000) (K := 128) (N := 128) (m ((c.tc : Thread nD τ).loc main_arg0)) (m ((c.tc : Thread nD τ).loc main_arg2))) := by
  dsimp only [W5, hostOps1]
  after_results_simp
  rw [exit0_product, exit0_src, exit0_dst, exit0_norm, exit0_arg3]
  rfl

theorem entry1_hidden : W6 m ρ c (Proc.devRef .tc main_v46) = hidden m c := by
  show StableHlo.after hostOps1_1 (W5 m ρ c) (Proc.devRef .tc main_v46) = _
  have h45 := s5_aggregated m ρ c
  generalize W5 m ρ c = V at h45 ⊢
  dsimp only [hostOps1_1]
  after_results_simp
  simp only [ofBuf_toBuf, ofBuf_aggregated, toBuf_hidden]
  rw [h45]
  rfl
theorem entry1_src : W6 m ρ c (Proc.devRef .tc main_v1) = src m c := by
  dsimp only [W6, W5, hostOps1, hostOps1_1]; after_results_simp; exact exit0_src m ρ c
theorem entry1_dst : W6 m ρ c (Proc.devRef .tc main_v3) = dst m c := by
  dsimp only [W6, W5, hostOps1, hostOps1_1]; after_results_simp; exact exit0_dst m ρ c
theorem entry1_norm : W6 m ρ c (Proc.devRef .tc main_v28) = edgeNorm m c := by
  dsimp only [W6, W5, hostOps1, hostOps1_1]; after_results_simp; exact exit0_norm m ρ c
theorem entry1_arg4 : W6 m ρ c (Proc.devRef .tc main_arg4) = m ((c.tc : Thread nD τ).loc main_arg4) := by
  dsimp only [W6, W5, hostOps1, hostOps1_1]; after_results_simp; exact exit0_arg4 m ρ c
theorem entry1_arg5 : W6 m ρ c (Proc.devRef .tc main_arg5) = m ((c.tc : Thread nD τ).loc main_arg5) := by
  dsimp only [W6, W5, hostOps1, hostOps1_1]; after_results_simp; exact exit0_arg5 m ρ c

/-! ## After the second pallas_call -/

theorem exit1_product : W7 m ρ c (Proc.devRef .tc main_v47)
    = mm (M := 100000) (K := 128) (N := 64) (hidden m c) (m ((c.tc : Thread nD τ).loc main_arg4)) := by
  refine (W7_arr m ρ c 2).trans ((SecondProduct.final (V6 m ρ) c).trans ?_)
  show mm (M := 100000) (K := 128) (N := 64) (W6 m ρ c (Proc.devRef .tc main_v46)) (W6 m ρ c (Proc.devRef .tc main_arg4)) = _
  rw [entry1_hidden, entry1_arg4]

theorem exit1_src : W7 m ρ c (Proc.devRef .tc main_v1) = src m c := (W7_of_ne m ρ c main_v1 (by decide)).trans (entry1_src m ρ c)
theorem exit1_dst : W7 m ρ c (Proc.devRef .tc main_v3) = dst m c := (W7_of_ne m ρ c main_v3 (by decide)).trans (entry1_dst m ρ c)
theorem exit1_norm : W7 m ρ c (Proc.devRef .tc main_v28) = edgeNorm m c := (W7_of_ne m ρ c main_v28 (by decide)).trans (entry1_norm m ρ c)
theorem exit1_arg5 : W7 m ρ c (Proc.devRef .tc main_arg5) = m ((c.tc : Thread nD τ).loc main_arg5) := (W7_of_ne m ρ c main_arg5 (by decide)).trans (entry1_arg5 m ρ c)

/-! ## The result: the last stretch applied to the second product -/

theorem result : W8 m ρ c (Proc.devRef .tc main_v63) = output m c := by
  dsimp only [W8, hostOps2]
  after_results_simp
  rw [exit1_product, exit1_src, exit1_dst, exit1_norm, exit1_arg5]
  rfl

end Cert.KernelIdeal.Gcn

end
-- ==== Proof.Bridge.lean ====
/-
  The reference computes the same term.

  The reference's @main is the kernel's host operations with each pallas_call replaced by one dot_general of the same
  two operands. On the extended reals a dot_general is the textbook product (sum over k of left (r, k) · right (k, c)),
  which is also what each pallas_call leaves, so from memories agreeing on the six arguments the reference's result
  is the kernel's, operation by operation: the same normalization of the graph, the same two aggregations, the same
  relu, around the same two products.
-/
import proofs.«130010_j64982855188731_1_alg».proof.Proof.KernelValue
import proofs.«130010_j64982855188731_1_alg».proof.Proof.RefRunPatched

set_option maxRecDepth 16384

noncomputable section

open Idealize.ShloMosaic Idealize.ShloMosaic.TcCoe Idealize.SL.Sem
open Idealize.ShloMosaic.PlainDot

namespace Cert.ReferenceIdeal.Bridge

/-- The reference's first dot_general is the textbook product. -/
theorem dot128_eq (A : FVec Ideal Cert.ReferenceIdeal.S100000x128 .f32) (B : FVec Ideal Cert.ReferenceIdeal.S128x128 .f32) :
    Host.dotGeneral Cert.ReferenceIdeal.dot_S100000x128_S128x128_S100000x128_1_0_0_1_n_n none A B
      = mm (M := 100000) (K := 128) (N := 128) A B :=
  dotGeneral_eq_mm none .single A B

/-- The reference's second dot_general is the textbook product. -/
theorem dot64_eq (A : FVec Ideal Cert.ReferenceIdeal.S100000x128 .f32) (B : FVec Ideal Cert.ReferenceIdeal.S128x64 .f32) :
    Host.dotGeneral Cert.ReferenceIdeal.dot_S100000x128_S128x64_S100000x64_1_0_0_1_n_n none A B
      = mm (M := 100000) (K := 128) (N := 64) A B :=
  dotGeneral_eq_mm none .single A B

/-- From memories agreeing on the arguments, the reference's result term is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.RunP.res_main_v63 m' c = Cert.KernelIdeal.Gcn.output m c := by
  unfold Cert.ReferenceIdeal.RunP.res_main_v63
  rw [h0, h1, h2, h3, h4, h5, dot128_eq, dot64_eq]
  rfl

end Cert.ReferenceIdeal.Bridge

end
-- ==== Proof.lean ====
/-
  A two-layer graph convolution whose two dense products run as pallas_calls, against the same network with the two
  products as host dot_generals.

  Both programs compute, from the edge list, every node's in-degree (a scatter-add of ones at the edges' destinations),
  its factor 1 / sqrt(max(deg, 1)) where the degree is positive and 0 elsewhere, and every edge's factor (the product of
  its end points' factors); then, twice: a product h · W, the product's rows gathered at the edges' sources, scaled by
  the edge's factor, scatter-added at the edges' destinations, plus the bias — with a relu after the first layer. The
  host operations are the same in both programs, line for line. They differ only in the two products: the kernel tiles
  the 100000 rows into 25 blocks of 4000, rounds both operands to bf16 and multiplies each block on the matrix unit
  into a zero accumulator; the reference calls dot_general once. On the extended reals the roundings are the identity
  and both are the textbook product — entry (r, c) is the sum over k of h (r, k) · W (k, c), a row of the result
  depending on that row of h only, so the 25 blocks of rows ARE the one product. No law that needs finiteness is used:
  the two results are the same term of the arguments.

  Modules: LibPlainDot (the textbook product; a matrix-unit product into zero and a dot_general are it), LibRowBlocks (a
  block of rows of a product), FirstProduct / SecondProduct (each pallas_call leaves the product of its operand
  arrays), KernelRun (the kernel's run with its result named), KernelValue (the kernel's result as one term of the
  arguments, boundary by boundary), RefRunPatched (the reference's run), Bridge (the reference's term is the kernel's).
  The ideal pass rewrote nothing, so the kernel's idealization is its own text read on the extended reals.
-/
import proofs.«130010_j64982855188731_1_alg».proof.Defs
import proofs.«130010_j64982855188731_1_alg».proof.Proof.Gen.Kernel
import proofs.«130010_j64982855188731_1_alg».proof.Proof.Gen.Kernel.Skeleton
import proofs.«130010_j64982855188731_1_alg».proof.Proof.Gen.Kernel.Launch
import proofs.«130010_j64982855188731_1_alg».proof.Proof.Gen.Kernel.Points
import proofs.«130010_j64982855188731_1_alg».proof.Proof.Gen.Kernel.Frame
import proofs.«130010_j64982855188731_1_alg».proof.Proof.Gen.KernelIdeal
import proofs.«130010_j64982855188731_1_alg».proof.Proof.Gen.KernelIdeal.Skeleton
import proofs.«130010_j64982855188731_1_alg».proof.Proof.Gen.KernelIdeal.Launch
import proofs.«130010_j64982855188731_1_alg».proof.Proof.Gen.KernelIdeal.Points
import proofs.«130010_j64982855188731_1_alg».proof.Proof.Gen.KernelIdeal.Frame
import proofs.«130010_j64982855188731_1_alg».proof.Proof.Gen.ReferenceIdeal
import proofs.«130010_j64982855188731_1_alg».proof.Proof.Gen.Pre_finite_inputs
import proofs.«130010_j64982855188731_1_alg».proof.Proof.KernelRun
import proofs.«130010_j64982855188731_1_alg».proof.Proof.KernelValue
import proofs.«130010_j64982855188731_1_alg».proof.Proof.RefRunPatched
import proofs.«130010_j64982855188731_1_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- Both programs end with the network's output of the arguments: the kernel's result buffer at the last boundary's
    contents, which is that term; the reference's composed term, which is the same one. -/
theorem algebraic : Cert.algebraic_KernelIdeal_ReferenceIdeal := by
  intro m ρ m' ρ' _ hagree
  refine ⟨fun c => Cert.KernelIdeal.Gcn.output m c, ?_, ?_⟩
  · exact (θ_run Cert.KernelIdeal.defs _ _).mono
      (fun _ h c => ⟨(h c).1.trans (Cert.KernelIdeal.Gcn.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.RunP.run (F := Ideal) m' ρ')
    obtain ⟨h0, h1, h2, h3, h4, h5⟩ := hagree c
    exact Cert.ReferenceIdeal.Bridge.result_eq m m' c h0 h1 h2 h3 h4 h5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
